-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg8 : FVec F S64x6 .f32) (main_arg9 : FVec F S6 .f32) (main_v33 : IVec S_ 1) : IVec S_ 1 :=
  let main_v34 : FVec F S64x6 .f32 := Host.absf main_arg8
  let main_cst_12 : FVec F S_ .f32 := constant S_ .f32 0x7F800000#32
  let main_v35 : FVec F S64x6 .f32 := broadcastInDim S64x6 ![] bcast_S_S64x6 main_cst_12
  let main_v36 : IVec S64x6 1 := cmpf .olt main_v34 main_v35
  let main_c_13 : IVec S_ 1 := constantI S_ 1 1#1
  let main_v37 : IVec S_ 1 := (fun x v => Host.reduce IntOp.andi x v reducesTo_S64x6_S_d0_1 h_S_) main_v36 main_c_13
  let main_v38 : IVec S_ 1 := andi main_v33 main_v37
  let main_v39 : FVec F S6 .f32 := Host.absf main_arg9
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x6 .f32) (main_arg9 : FVec F S6 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x64 .f32) (main_arg3 : FVec F S64 .f32) (main_arg4 : FVec F S64x64 .f32) (main_arg5 : FVec F S64 .f32) (main_arg6 : FVec F S64x64 .f32) (main_arg7 : FVec F S64 .f32) (main_arg8 : FVec F S64x6 .f32) (main_arg9 : FVec F S6 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S1x6 : Shape := ⟨2, ![1, 6]⟩
abbrev S100000x6 : Shape := ⟨2, ![100000, 6]⟩
abbrev S5000x6 : Shape := ⟨2, ![5000, 6]⟩

abbrev nBuf : Space → Nat
  | .hbm => 100
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x6, .f32⟩
  | .hbm, ⟨9, _⟩ => ⟨S6, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S1x6, .f32⟩
  | .hbm, ⟨98, _⟩ => ⟨S100000x6, .f32⟩
  | .hbm, ⟨99, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S64x6, .f32⟩
  | .local _ .vmem, ⟨15, _⟩ => ⟨S1x6, .f32⟩
  | .local _ .vmem, ⟨16, _⟩ => ⟨S5000x6, .f32⟩
  | .local _ .vmem, ⟨17, _⟩ => ⟨S5000x6, .f32⟩
  | .local _ .vmem, ⟨18, _⟩ => ⟨S5000x64, .f32⟩
  | .local _ .vmem, ⟨19, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68_0 : Ref sig .tc := ⟨.hbm, 98, rfl⟩
abbrev main_v68_1 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x6 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x6 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x6 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64_S1x64 : S64.ShapeCasts S1x64
  shapeCasts_S6_S1x6 : S6.ShapeCasts S1x6
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S5000x6 : S1x6.Broadcasts S5000x6
  inb_S5000x6_S5000x6_0_0 : ∀ a, (![0, 0] : Fin 2 → Nat) a + S5000x6.size a ≤ S5000x6.size a
  h_S5000x6 : 0 < S5000x6.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x6_S5000x6_1_0_0_1_n_n_wf : DotDims.WF S5000x64 S64x6 S5000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x6.size a ≤ S64x6.size a
  hwx2_3 : ∀ i : grid2.Coords, EltTy.bits .f32 = 32 ∨ (Rect.block (s := S64x6) S64x6.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x6.size a ≤ S1x6.size a
  hwx2_4 : ∀ i : grid2.Coords, EltTy.bits .f32 = 32 ∨ (Rect.block (s := S1x6) S1x6.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x6.size a ≤ S100000x6.size a
  hwx2_5 : ∀ i : grid2.Coords, EltTy.bits .f32 = 32 ∨ (Rect.block (s := S100000x6) S5000x6.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x6_S5000x6_1_0_0_1_n_n : DotDims S5000x64 S64x6 S5000x6 where
  lhsContracting := [1]
  rhsContracting := [0]
  lhsNonContracting := [0]
  rhsNonContracting := [1]
  lhsBatch := []
  rhsBatch := []
  wf := dot_S5000x64_S64x6_S5000x6_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x6.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x6.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68_0) S5000x6.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v68_1) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S64x6 : Shape := ⟨2, ![64, 6]⟩
abbrev S6 : Shape := ⟨1, ![6]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x6 : Shape := ⟨2, ![100000, 6]⟩
abbrev S1x6 : Shape := ⟨2, ![1, 6]⟩

abbrev nBuf : Space → Nat
  | .hbm => 107
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x6, .f32⟩
  | .hbm, ⟨9, _⟩ => ⟨S6, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S100000x6, .f32⟩
  | .hbm, ⟨104, _⟩ => ⟨S1x6, .f32⟩
  | .hbm, ⟨105, _⟩ => ⟨S100000x6, .f32⟩
  | .hbm, ⟨106, _⟩ => ⟨S100000x6, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call3_cst : Ref sig .tc := ⟨.hbm, 100, rfl⟩
abbrev main_call3_v0 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x6_S100000x6_1_0_0_1_n_n_wf : DotDims.WF S100000x64 S64x6 S100000x6 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x6_S100000x6_1_0_0_1_n_n : DotDims S100000x64 S64x6 S100000x6 where
  lhsContracting := [1]
  rhsContracting := [0]
  lhsNonContracting := [0]
  rhsNonContracting := [1]
  lhsBatch := []
  rhsBatch := []
  wf := dot_S100000x64_S64x6_S100000x6_1_0_0_1_n_n_wf

class Facts : Prop extends Facts₀ where

variable [Facts]
-- ==== Proof.KernelRun.lean ====
/-
  The idealized kernel's run with its two result arrays named.  The program is three pipelined regions among
  stretches of host operations; the contents of every unscoped buffer at each boundary are a fold from the launch
  memory (W0 … W11).  The frame theorem reads only the argument arrays off the last boundary; here the same run is
  read at the two result buffers as well: after the run the logits array holds W11 at its buffer and the embedding
  array holds W11 at its buffer, and the arguments are as launched.
-/
import proofs.«141832_j62371515072942_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with both result arrays at the last
    boundary's contents and every argument array as launched. -/
theorem run : θ_run defs (onTc (τ := τ) (main (F := F))) ⟨m, fun _ => 0, ρ⟩ (fun r => ∀ c : Dev nD,
      r.2.mem ((c.tc : Thread nD τ).loc main_v68_0) = W11 m ρ c (Proc.devRef .tc main_v68_0)
      ∧ r.2.mem ((c.tc : Thread nD τ).loc main_v68_1) = W11 m ρ c (Proc.devRef .tc main_v68_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v68_0 (by decide)),
       h c _ (mem_uc main_v68_1 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Results

end
-- ==== Proof.Spec.lean ====
/-
  The specification's vocabulary over the extended reals: the product of two matrices, entry (r, c) the sum over the
  inner coordinate k of x(r, k) · w(k, c); a row added to every row of a matrix; and the rectifier, the maximum with
  zero.  No finiteness is asked anywhere: the two programs compute these same sums term by term, in the same order of
  the inner coordinate, so no law of the extended reals beyond reading both sides at an index is used.
-/
import Idealize.ShloMosaic.Lib.ValueIdx

noncomputable section

namespace Cert.Spec

open Idealize.ShloMosaic Idealize.ShloMosaic.ValueIdx

/-- The matrix product on the extended reals. -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, (i 0).isLt⟩ : Fin M) k) * w (ix2 k (⟨(i 1).val, (i 1).isLt⟩ : Fin N))

theorem mm_apply {M K N : Nat} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- A row vector (shape [1, N]) added to every row of a matrix. -/
def addRow {M N : Nat} (y : (⟨2, ![M, N]⟩ : Shape).Idx → EReal) (b : (⟨2, ![1, N]⟩ : Shape).Idx → EReal) :
    (⟨2, ![M, N]⟩ : Shape).Idx → EReal :=
  fun i => y i + b (ix2 (0 : Fin 1) (⟨(i 1).val, (i 1).isLt⟩ : Fin N))

/-- The rectifier: the maximum with the value the zero word denotes. -/
def relu {M N : Nat} (y : (⟨2, ![M, N]⟩ : Shape).Idx → EReal) : (⟨2, ![M, N]⟩ : Shape).Idx → EReal :=
  fun i => max (y i) (Ideal.ofBits .f32 0x00000000#32)

end Cert.Spec

end
-- ==== Proof.Region0.lean ====
/-
  Region 0 of the idealized kernel is a row-blocked matrix product: at grid point t the body loads rows
  5000·t … 5000·t + 4999 of the first operand and the whole second operand, and stores their product into the same
  rows of the output.  On the extended reals a block's entry (p, q) is the sum over k of x(5000·t + p, k) · w(k, q),
  which is entry (5000·t + p, q) of the whole product; the twenty blocks tile the output, so after the region the
  output array IS the whole product of the two arrays the region found.    Everything is stated for ARBITRARY entry contents V of the region.
-/
import proofs.«141832_j62371515072942_1_alg».proof.Proof.Gen.KernelIdeal.Frame
import proofs.«141832_j62371515072942_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The block product at an index -/

theorem lhs_row (j : S5000x64.Idx) (q : (dot_S5000x256_S256x64_S5000x64_1_0_0_1_n_n).contr.Idx) :
    ((dot_S5000x256_S256x64_S5000x64_1_0_0_1_n_n).lhsIdx j q 0).val = (j 0).val := by
  unfold DotDims.lhsIdx
  rw [dif_neg (show ¬(0 : Fin S5000x256.rank) ∈ (dot_S5000x256_S256x64_S5000x64_1_0_0_1_n_n).lhsBatch by decide),
    dif_pos (show (0 : Fin S5000x256.rank) ∈ (dot_S5000x256_S256x64_S5000x64_1_0_0_1_n_n).lhsNonContracting by decide)]
  rfl
theorem lhs_col (j : S5000x64.Idx) (q : (dot_S5000x256_S256x64_S5000x64_1_0_0_1_n_n).contr.Idx) :
    ((dot_S5000x256_S256x64_S5000x64_1_0_0_1_n_n).lhsIdx j q 1).val = (q ⟨0, by decide⟩).val :=
  (dot_S5000x256_S256x64_S5000x64_1_0_0_1_n_n).lhsIdx_val_of_single rfl j q
theorem rhs_row (j : S5000x64.Idx) (q : (dot_S5000x256_S256x64_S5000x64_1_0_0_1_n_n).contr.Idx) :
    ((dot_S5000x256_S256x64_S5000x64_1_0_0_1_n_n).rhsIdx j q 0).val = (q ⟨0, by decide⟩).val :=
  (dot_S5000x256_S256x64_S5000x64_1_0_0_1_n_n).rhsIdx_val_of_single rfl j q
theorem rhs_col (j : S5000x64.Idx) (q : (dot_S5000x256_S256x64_S5000x64_1_0_0_1_n_n).contr.Idx) :
    ((dot_S5000x256_S256x64_S5000x64_1_0_0_1_n_n).rhsIdx j q 1).val = (j 1).val := by
  unfold DotDims.rhsIdx
  rw [dif_neg (show ¬(1 : Fin S256x64.rank) ∈ (dot_S5000x256_S256x64_S5000x64_1_0_0_1_n_n).rhsBatch by decide),
    dif_pos (show (1 : Fin S256x64.rank) ∈ (dot_S5000x256_S256x64_S5000x64_1_0_0_1_n_n).rhsNonContracting by decide)]
  rfl

/-- The body's stored value at entry (p, q) of a block: the sum over the contracted coordinate of the products
    (a change of float format is the identity on the extended reals, and the accumulator is zero). -/
theorem payload_apply (x : Vec Ideal S5000x256 .f32) (w : Vec Ideal S256x64 .f32) (p : Fin 5000) (q : Fin 64) :
    k0_pay1 (F := Ideal) x w (ix2 p q) = ∑ k : Fin 256, x (ix2 p k) * w (ix2 k q) := by
  unfold k0_pay1
  refine (Ideal.matmul_constant_zero_apply (dot_S5000x256_S256x64_S5000x64_1_0_0_1_n_n) none _ _ (ix2 p q)).trans ?_
  rw [← Equiv.sum_comp (contrEquiv1 (dot_S5000x256_S256x64_S5000x64_1_0_0_1_n_n) 256 rfl rfl).symm]
  refine Finset.sum_congr rfl fun k _ => ?_
  have hk := contrEquiv1_symm_val (dot_S5000x256_S256x64_S5000x64_1_0_0_1_n_n) 256 rfl rfl k
  have el : (dot_S5000x256_S256x64_S5000x64_1_0_0_1_n_n).lhsIdx (ix2 p q) ((contrEquiv1 (dot_S5000x256_S256x64_S5000x64_1_0_0_1_n_n) 256 rfl rfl).symm k) = ix2 p k :=
    funext fun a => Fin.ext (by
      match a with
      | ⟨0, _⟩ => exact lhs_row _ _
      | ⟨1, _⟩ => exact (lhs_col _ _).trans hk)
  have er : (dot_S5000x256_S256x64_S5000x64_1_0_0_1_n_n).rhsIdx (ix2 p q) ((contrEquiv1 (dot_S5000x256_S256x64_S5000x64_1_0_0_1_n_n) 256 rfl rfl).symm k) = ix2 k q :=
    funext fun a => Fin.ext (by
      match a with
      | ⟨0, _⟩ => exact (rhs_row _ _).trans hk
      | ⟨1, _⟩ => exact rhs_col _ _)
  show x ((dot_S5000x256_S256x64_S5000x64_1_0_0_1_n_n).lhsIdx (ix2 p q) _) * w ((dot_S5000x256_S256x64_S5000x64_1_0_0_1_n_n).rhsIdx (ix2 p q) _) = _
  rw [el, er]

/-! ## From the blocks to the array -/

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the twenty grid points: the first operand's row block moves with the output's, every
    other block index is zero, and the output's row block index is below twenty. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block of the output is some grid point's. -/
theorem index_onto : ∀ b : Fin 20, ∃ t : Fin cfg0.N, win0_2.index t = ![b.val, 0] :=
  (by decide +kernel : ∀ b : Fin 20, ∃ t : Fin grid0.N, win0_2.index t = ![b.val, 0])

/-- One entry of one block: if the loaded row block x is rows 5000·r … of an array A0 and the loaded w is all of A1,
    the stored value at y is the whole product's entry at the array index i that y sits at. -/
theorem block_entry (A0 : (⟨2, ![100000, 256]⟩ : Shape).Idx → EReal) (A1 : (⟨2, ![256, 64]⟩ : Shape).Idx → EReal)
    (x : Vec Ideal S5000x256 .f32) (w : Vec Ideal S256x64 .f32) (r : Nat)
    (hx : ∀ (u : S5000x256.Idx) (v : (⟨2, ![100000, 256]⟩ : Shape).Idx), (v 0).val = r * 5000 + (u 0).val → (v 1).val = (u 1).val → x u = A0 v)
    (hw : ∀ (u : S256x64.Idx) (v : (⟨2, ![256, 64]⟩ : Shape).Idx), (v 0).val = (u 0).val → (v 1).val = (u 1).val → w u = A1 v)
    (y : S5000x64.Idx) (i : (⟨2, ![100000, 64]⟩ : Shape).Idx) (hi0 : (i 0).val = r * 5000 + (y 0).val) (hi1 : (i 1).val = (y 1).val) :
    k0_pay1 (F := Ideal) x w y = Cert.Spec.mm A0 A1 i := by
  obtain ⟨p, q, rfl⟩ : ∃ (p : Fin 5000) (q : Fin 64), y = ix2 p q := ⟨y 0, y 1, eq_ix2 y⟩
  rw [payload_apply]
  unfold Cert.Spec.mm
  refine Finset.sum_congr rfl fun k _ => ?_
  rw [hx (ix2 p k) (ix2 (⟨(i 0).val, (i 0).isLt⟩ : Fin 100000) k) hi0 rfl, hw (ix2 k q) (ix2 k (⟨(i 1).val, (i 1).isLt⟩ : Fin 64)) rfl hi1]

/-- What grid point t writes back is block t of the whole product of the two arrays the region found. -/
theorem flushed_eq (c : Dev nD) (t : Fin cfg0.N) :
    (dat0 V c).flushed 2 t = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero off_zero]
  simp only [View.ld_unit_zero (S := S5000x256) off_zero, View.ld_unit_zero (S := S256x64) off_zero]
  obtain ⟨e0, e1, e2, e3, e4, e5⟩ := index_facts t
  funext j
  show k0_pay1 (F := Ideal) (iblk0 V c 0 t) (iblk0 V c 1 t) ((cfg0.win 2).xinj (grid0.coords t) j)
    = Cert.Spec.mm (V c main_arg0) (V c main_arg2) (((cfg0.win 2).blk t).view.emb j)
  refine block_entry (V c main_arg0) (V c main_arg2) (iblk0 V c 0 t) (iblk0 V c 1 t) (win0_2.index t (0 : Fin 2)) ?_ ?_
    ((cfg0.win 2).xinj (grid0.coords t) j) (((cfg0.win 2).blk t).view.emb j) ?_ ?_
  · intro u v h0 h1
    show V c main_arg0 (((cfg0.win 0).blk t).view.emb u) = V c main_arg0 v
    refine congrArg (V c main_arg0) ?_
    funext a; apply Fin.ext
    match a with
    | ⟨0, _⟩ => show win0_0.index t (0 : Fin 2) * 5000 + 1 * (u 0).val = (v 0).val; omega
    | ⟨1, _⟩ => show win0_0.index t (1 : Fin 2) * 256 + 1 * (u 1).val = (v 1).val; omega
  · intro u v h0 h1
    show V c main_arg2 (((cfg0.win 1).blk t).view.emb u) = V c main_arg2 v
    refine congrArg (V c main_arg2) ?_
    funext a; apply Fin.ext
    match a with
    | ⟨0, _⟩ => show win0_1.index t (0 : Fin 2) * 256 + 1 * (u 0).val = (v 0).val; omega
    | ⟨1, _⟩ => show win0_1.index t (1 : Fin 2) * 64 + 1 * (u 1).val = (v 1).val; omega
  · show win0_2.index t (0 : Fin 2) * 5000 + 1 * (j 0).val = win0_2.index t (0 : Fin 2) * 5000 + (j 0).val; omega
  · show win0_2.index t (1 : Fin 2) * 64 + 1 * (j 1).val = (j 1).val; omega

/-- An index of the output array is in point t's block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The twenty row blocks cover the output array: row r is in block r / 5000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After region 0 its output array is the whole product of the two arrays the region found. -/
theorem array_eq (c : Dev nD) : (dat0 V c).arrAt 2 cfg0.N = Cert.Spec.mm (V c main_arg0) (V c main_arg2) :=
  (dat0 V c).arrAt_eq_of_cover 2 _ (fun t _ => flushed_eq V c t) covered

end Cert.KernelIdeal.Region0

end
-- ==== Proof.Region1.lean ====
/-
  Region 1 of the idealized kernel is the second row-blocked matrix product: at grid point t the body loads rows
  5000·t … 5000·t + 4999 of the hidden activations (a cast to the same shape and a change of float format, both the
  identity here) and the whole 64 × 64 weight, and stores their product into the same rows of the output.  As for
  region 0, a block's entry (p, q) is entry (5000·t + p, q) of the whole product and the twenty blocks tile the output,
  so after the region the output array IS the whole product of the two arrays the region found, for ARBITRARY entry
  contents V.
-/
import proofs.«141832_j62371515072942_1_alg».proof.Proof.Gen.KernelIdeal.Frame
import proofs.«141832_j62371515072942_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The block product at an index -/

theorem lhs_row (j : S5000x64.Idx) (q : (dot_S5000x64_S64x64_S5000x64_1_0_0_1_n_n).contr.Idx) :
    ((dot_S5000x64_S64x64_S5000x64_1_0_0_1_n_n).lhsIdx j q 0).val = (j 0).val := by
  unfold DotDims.lhsIdx
  rw [dif_neg (show ¬(0 : Fin S5000x64.rank) ∈ (dot_S5000x64_S64x64_S5000x64_1_0_0_1_n_n).lhsBatch by decide),
    dif_pos (show (0 : Fin S5000x64.rank) ∈ (dot_S5000x64_S64x64_S5000x64_1_0_0_1_n_n).lhsNonContracting by decide)]
  rfl
theorem lhs_col (j : S5000x64.Idx) (q : (dot_S5000x64_S64x64_S5000x64_1_0_0_1_n_n).contr.Idx) :
    ((dot_S5000x64_S64x64_S5000x64_1_0_0_1_n_n).lhsIdx j q 1).val = (q ⟨0, by decide⟩).val :=
  (dot_S5000x64_S64x64_S5000x64_1_0_0_1_n_n).lhsIdx_val_of_single rfl j q
theorem rhs_row (j : S5000x64.Idx) (q : (dot_S5000x64_S64x64_S5000x64_1_0_0_1_n_n).contr.Idx) :
    ((dot_S5000x64_S64x64_S5000x64_1_0_0_1_n_n).rhsIdx j q 0).val = (q ⟨0, by decide⟩).val :=
  (dot_S5000x64_S64x64_S5000x64_1_0_0_1_n_n).rhsIdx_val_of_single rfl j q
theorem rhs_col (j : S5000x64.Idx) (q : (dot_S5000x64_S64x64_S5000x64_1_0_0_1_n_n).contr.Idx) :
    ((dot_S5000x64_S64x64_S5000x64_1_0_0_1_n_n).rhsIdx j q 1).val = (j 1).val := by
  unfold DotDims.rhsIdx
  rw [dif_neg (show ¬(1 : Fin S64x64.rank) ∈ (dot_S5000x64_S64x64_S5000x64_1_0_0_1_n_n).rhsBatch by decide),
    dif_pos (show (1 : Fin S64x64.rank) ∈ (dot_S5000x64_S64x64_S5000x64_1_0_0_1_n_n).rhsNonContracting by decide)]
  rfl

/-- The body's stored value at entry (p, q) of a block: the sum over the contracted coordinate of the products
    (a change of float format is the identity on the extended reals, and the accumulator is zero). -/
theorem payload_apply (x : Vec Ideal S5000x64 .f32) (w : Vec Ideal S64x64 .f32) (p : Fin 5000) (q : Fin 64) :
    k1_pay1 (F := Ideal) x w (ix2 p q) = ∑ k : Fin 64, x (ix2 p k) * w (ix2 k q) := by
  unfold k1_pay1
  refine (Ideal.matmul_constant_zero_apply (dot_S5000x64_S64x64_S5000x64_1_0_0_1_n_n) none _ _ (ix2 p q)).trans ?_
  rw [← Equiv.sum_comp (contrEquiv1 (dot_S5000x64_S64x64_S5000x64_1_0_0_1_n_n) 64 rfl rfl).symm]
  refine Finset.sum_congr rfl fun k _ => ?_
  have hk := contrEquiv1_symm_val (dot_S5000x64_S64x64_S5000x64_1_0_0_1_n_n) 64 rfl rfl k
  have el : (dot_S5000x64_S64x64_S5000x64_1_0_0_1_n_n).lhsIdx (ix2 p q) ((contrEquiv1 (dot_S5000x64_S64x64_S5000x64_1_0_0_1_n_n) 64 rfl rfl).symm k) = ix2 p k :=
    funext fun a => Fin.ext (by
      match a with
      | ⟨0, _⟩ => exact lhs_row _ _
      | ⟨1, _⟩ => exact (lhs_col _ _).trans hk)
  have er : (dot_S5000x64_S64x64_S5000x64_1_0_0_1_n_n).rhsIdx (ix2 p q) ((contrEquiv1 (dot_S5000x64_S64x64_S5000x64_1_0_0_1_n_n) 64 rfl rfl).symm k) = ix2 k q :=
    funext fun a => Fin.ext (by
      match a with
      | ⟨0, _⟩ => exact (rhs_row _ _).trans hk
      | ⟨1, _⟩ => exact rhs_col _ _)
  show (shapeCast S5000x64 x shapeCasts_S5000x64_S5000x64) ((dot_S5000x64_S64x64_S5000x64_1_0_0_1_n_n).lhsIdx (ix2 p q) _) * w ((dot_S5000x64_S64x64_S5000x64_1_0_0_1_n_n).rhsIdx (ix2 p q) _) = _
  rw [shapeCast_self, el, er]

/-! ## From the blocks to the array -/

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the twenty grid points: the first operand's row block moves with the output's, every
    other block index is zero, and the output's row block index is below twenty. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every row block of the output is some grid point's. -/
theorem index_onto : ∀ b : Fin 20, ∃ t : Fin cfg1.N, win1_2.index t = ![b.val, 0] :=
  (by decide +kernel : ∀ b : Fin 20, ∃ t : Fin grid1.N, win1_2.index t = ![b.val, 0])

/-- One entry of one block: if the loaded row block x is rows 5000·r … of an array A0 and the loaded w is all of A1,
    the stored value at y is the whole product's entry at the array index i that y sits at. -/
theorem block_entry (A0 : (⟨2, ![100000, 64]⟩ : Shape).Idx → EReal) (A1 : (⟨2, ![64, 64]⟩ : Shape).Idx → EReal)
    (x : Vec Ideal S5000x64 .f32) (w : Vec Ideal S64x64 .f32) (r : Nat)
    (hx : ∀ (u : S5000x64.Idx) (v : (⟨2, ![100000, 64]⟩ : Shape).Idx), (v 0).val = r * 5000 + (u 0).val → (v 1).val = (u 1).val → x u = A0 v)
    (hw : ∀ (u : S64x64.Idx) (v : (⟨2, ![64, 64]⟩ : Shape).Idx), (v 0).val = (u 0).val → (v 1).val = (u 1).val → w u = A1 v)
    (y : S5000x64.Idx) (i : (⟨2, ![100000, 64]⟩ : Shape).Idx) (hi0 : (i 0).val = r * 5000 + (y 0).val) (hi1 : (i 1).val = (y 1).val) :
    k1_pay1 (F := Ideal) x w y = Cert.Spec.mm A0 A1 i := by
  obtain ⟨p, q, rfl⟩ : ∃ (p : Fin 5000) (q : Fin 64), y = ix2 p q := ⟨y 0, y 1, eq_ix2 y⟩
  rw [payload_apply]
  unfold Cert.Spec.mm
  refine Finset.sum_congr rfl fun k _ => ?_
  rw [hx (ix2 p k) (ix2 (⟨(i 0).val, (i 0).isLt⟩ : Fin 100000) k) hi0 rfl, hw (ix2 k q) (ix2 k (⟨(i 1).val, (i 1).isLt⟩ : Fin 64)) rfl hi1]

/-- What grid point t writes back is block t of the whole product of the two arrays the region found. -/
theorem flushed_eq (c : Dev nD) (t : Fin cfg1.N) :
    (dat1 V c).flushed 2 t = ((cfg1.win 2).blk t).view.read (Elt Ideal) (Cert.Spec.mm (V c main_v47) (V c main_arg4)) := by
  show (cfg1.win 2).cut (grid1.coords t) ((dat1 V c).after 2 t) = _
  rw [after1_2]
  unfold out1_2
  rw [View.canon_unit_zero off_zero]
  simp only [View.ld_unit_zero (S := S5000x64) off_zero, View.ld_unit_zero (S := S64x64) off_zero]
  obtain ⟨e0, e1, e2, e3, e4, e5⟩ := index_facts t
  funext j
  show k1_pay1 (F := Ideal) (iblk1 V c 0 t) (iblk1 V c 1 t) ((cfg1.win 2).xinj (grid1.coords t) j)
    = Cert.Spec.mm (V c main_v47) (V c main_arg4) (((cfg1.win 2).blk t).view.emb j)
  refine block_entry (V c main_v47) (V c main_arg4) (iblk1 V c 0 t) (iblk1 V c 1 t) (win1_2.index t (0 : Fin 2)) ?_ ?_
    ((cfg1.win 2).xinj (grid1.coords t) j) (((cfg1.win 2).blk t).view.emb j) ?_ ?_
  · intro u v h0 h1
    show V c main_v47 (((cfg1.win 0).blk t).view.emb u) = V c main_v47 v
    refine congrArg (V c main_v47) ?_
    funext a; apply Fin.ext
    match a with
    | ⟨0, _⟩ => show win1_0.index t (0 : Fin 2) * 5000 + 1 * (u 0).val = (v 0).val; omega
    | ⟨1, _⟩ => show win1_0.index t (1 : Fin 2) * 64 + 1 * (u 1).val = (v 1).val; omega
  · intro u v h0 h1
    show V c main_arg4 (((cfg1.win 1).blk t).view.emb u) = V c main_arg4 v
    refine congrArg (V c main_arg4) ?_
    funext a; apply Fin.ext
    match a with
    | ⟨0, _⟩ => show win1_1.index t (0 : Fin 2) * 64 + 1 * (u 0).val = (v 0).val; omega
    | ⟨1, _⟩ => show win1_1.index t (1 : Fin 2) * 64 + 1 * (u 1).val = (v 1).val; omega
  · show win1_2.index t (0 : Fin 2) * 5000 + 1 * (j 0).val = win1_2.index t (0 : Fin 2) * 5000 + (j 0).val; omega
  · show win1_2.index t (1 : Fin 2) * 64 + 1 * (j 1).val = (j 1).val; omega

/-- An index of the output array is in point t's block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- The twenty row blocks cover the output array: row r is in block r / 5000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After region 0 its output array is the whole product of the two arrays the region found. -/
theorem array_eq (c : Dev nD) : (dat1 V c).arrAt 2 cfg1.N = Cert.Spec.mm (V c main_v47) (V c main_arg4) :=
  (dat1 V c).arrAt_eq_of_cover 2 _ (fun t _ => flushed_eq V c t) covered

end Cert.KernelIdeal.Region1

end
-- ==== Proof.Region2.lean ====
/-
  Region 2 of the idealized kernel is the head.  At grid point t the body loads rows 5000·t … 5000·t + 4999 of the
  hidden activations h, the whole projection weight Wp, its bias row bp (shape [1, 64]), the whole classifier weight Wc
  and its bias row bc (shape [1, 6]); it stores z = max(h·Wp + bp, 0) into the same rows of the embedding output and
  z·Wc + bc into the same rows of the logits output.  On the extended reals an entry of a block is the same entry of
  the whole-array expression (a block of rows of a product is the product of the block of rows; a bias row is added to
  every row; the rectifier is pointwise), and the twenty row blocks tile either output: after the region each output
  array IS that whole-array expression of the arrays the region found, for ARBITRARY entry contents V.
-/
import proofs.«141832_j62371515072942_1_alg».proof.Proof.Gen.KernelIdeal.Frame
import proofs.«141832_j62371515072942_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The projection product at an index -/

theorem p_lhs_row (j : S5000x64.Idx) (q : (dot_S5000x64_S64x64_S5000x64_1_0_0_1_n_n).contr.Idx) :
    ((dot_S5000x64_S64x64_S5000x64_1_0_0_1_n_n).lhsIdx j q 0).val = (j 0).val := by
  unfold DotDims.lhsIdx
  rw [dif_neg (show ¬(0 : Fin S5000x64.rank) ∈ (dot_S5000x64_S64x64_S5000x64_1_0_0_1_n_n).lhsBatch by decide),
    dif_pos (show (0 : Fin S5000x64.rank) ∈ (dot_S5000x64_S64x64_S5000x64_1_0_0_1_n_n).lhsNonContracting by decide)]
  rfl
theorem p_lhs_col (j : S5000x64.Idx) (q : (dot_S5000x64_S64x64_S5000x64_1_0_0_1_n_n).contr.Idx) :
    ((dot_S5000x64_S64x64_S5000x64_1_0_0_1_n_n).lhsIdx j q 1).val = (q ⟨0, by decide⟩).val :=
  (dot_S5000x64_S64x64_S5000x64_1_0_0_1_n_n).lhsIdx_val_of_single rfl j q
theorem p_rhs_row (j : S5000x64.Idx) (q : (dot_S5000x64_S64x64_S5000x64_1_0_0_1_n_n).contr.Idx) :
    ((dot_S5000x64_S64x64_S5000x64_1_0_0_1_n_n).rhsIdx j q 0).val = (q ⟨0, by decide⟩).val :=
  (dot_S5000x64_S64x64_S5000x64_1_0_0_1_n_n).rhsIdx_val_of_single rfl j q
theorem p_rhs_col (j : S5000x64.Idx) (q : (dot_S5000x64_S64x64_S5000x64_1_0_0_1_n_n).contr.Idx) :
    ((dot_S5000x64_S64x64_S5000x64_1_0_0_1_n_n).rhsIdx j q 1).val = (j 1).val := by
  unfold DotDims.rhsIdx
  rw [dif_neg (show ¬(1 : Fin S64x64.rank) ∈ (dot_S5000x64_S64x64_S5000x64_1_0_0_1_n_n).rhsBatch by decide),
    dif_pos (show (1 : Fin S64x64.rank) ∈ (dot_S5000x64_S64x64_S5000x64_1_0_0_1_n_n).rhsNonContracting by decide)]
  rfl

/-- The projection product into a zero accumulator, of any two operands, at entry (p, q). -/
theorem proj_apply (x : FVec Ideal S5000x64 .bf16) (w : FVec Ideal S64x64 .bf16) (p : Fin 5000) (q : Fin 64) :
    matmul (dot_S5000x64_S64x64_S5000x64_1_0_0_1_n_n) none x w (constant S5000x64 .f32 0x00000000#32) (ix2 p q)
      = ∑ k : Fin 64, x (ix2 p k) * w (ix2 k q) := by
  refine (Ideal.matmul_constant_zero_apply (dot_S5000x64_S64x64_S5000x64_1_0_0_1_n_n) none _ _ (ix2 p q)).trans ?_
  rw [← Equiv.sum_comp (contrEquiv1 (dot_S5000x64_S64x64_S5000x64_1_0_0_1_n_n) 64 rfl rfl).symm]
  refine Finset.sum_congr rfl fun k _ => ?_
  have hk := contrEquiv1_symm_val (dot_S5000x64_S64x64_S5000x64_1_0_0_1_n_n) 64 rfl rfl k
  have el : (dot_S5000x64_S64x64_S5000x64_1_0_0_1_n_n).lhsIdx (ix2 p q) ((contrEquiv1 (dot_S5000x64_S64x64_S5000x64_1_0_0_1_n_n) 64 rfl rfl).symm k) = ix2 p k :=
    funext fun a => Fin.ext (by
      match a with
      | ⟨0, _⟩ => exact p_lhs_row _ _
      | ⟨1, _⟩ => exact (p_lhs_col _ _).trans hk)
  have er : (dot_S5000x64_S64x64_S5000x64_1_0_0_1_n_n).rhsIdx (ix2 p q) ((contrEquiv1 (dot_S5000x64_S64x64_S5000x64_1_0_0_1_n_n) 64 rfl rfl).symm k) = ix2 k q :=
    funext fun a => Fin.ext (by
      match a with
      | ⟨0, _⟩ => exact (p_rhs_row _ _).trans hk
      | ⟨1, _⟩ => exact p_rhs_col _ _)
  rw [el, er]

/-! ## The classifier product at an index -/

theorem c_lhs_row (j : S5000x6.Idx) (q : (dot_S5000x64_S64x6_S5000x6_1_0_0_1_n_n).contr.Idx) :
    ((dot_S5000x64_S64x6_S5000x6_1_0_0_1_n_n).lhsIdx j q 0).val = (j 0).val := by
  unfold DotDims.lhsIdx
  rw [dif_neg (show ¬(0 : Fin S5000x64.rank) ∈ (dot_S5000x64_S64x6_S5000x6_1_0_0_1_n_n).lhsBatch by decide),
    dif_pos (show (0 : Fin S5000x64.rank) ∈ (dot_S5000x64_S64x6_S5000x6_1_0_0_1_n_n).lhsNonContracting by decide)]
  rfl
theorem c_lhs_col (j : S5000x6.Idx) (q : (dot_S5000x64_S64x6_S5000x6_1_0_0_1_n_n).contr.Idx) :
    ((dot_S5000x64_S64x6_S5000x6_1_0_0_1_n_n).lhsIdx j q 1).val = (q ⟨0, by decide⟩).val :=
  (dot_S5000x64_S64x6_S5000x6_1_0_0_1_n_n).lhsIdx_val_of_single rfl j q
theorem c_rhs_row (j : S5000x6.Idx) (q : (dot_S5000x64_S64x6_S5000x6_1_0_0_1_n_n).contr.Idx) :
    ((dot_S5000x64_S64x6_S5000x6_1_0_0_1_n_n).rhsIdx j q 0).val = (q ⟨0, by decide⟩).val :=
  (dot_S5000x64_S64x6_S5000x6_1_0_0_1_n_n).rhsIdx_val_of_single rfl j q
theorem c_rhs_col (j : S5000x6.Idx) (q : (dot_S5000x64_S64x6_S5000x6_1_0_0_1_n_n).contr.Idx) :
    ((dot_S5000x64_S64x6_S5000x6_1_0_0_1_n_n).rhsIdx j q 1).val = (j 1).val := by
  unfold DotDims.rhsIdx
  rw [dif_neg (show ¬(1 : Fin S64x6.rank) ∈ (dot_S5000x64_S64x6_S5000x6_1_0_0_1_n_n).rhsBatch by decide),
    dif_pos (show (1 : Fin S64x6.rank) ∈ (dot_S5000x64_S64x6_S5000x6_1_0_0_1_n_n).rhsNonContracting by decide)]
  rfl

/-- The classifier product into a zero accumulator, of any two operands, at entry (p, q). -/
theorem cls_apply (x : FVec Ideal S5000x64 .bf16) (w : FVec Ideal S64x6 .bf16) (p : Fin 5000) (q : Fin 6) :
    matmul (dot_S5000x64_S64x6_S5000x6_1_0_0_1_n_n) none x w (constant S5000x6 .f32 0x00000000#32) (ix2 p q)
      = ∑ k : Fin 64, x (ix2 p k) * w (ix2 k q) := by
  refine (Ideal.matmul_constant_zero_apply (dot_S5000x64_S64x6_S5000x6_1_0_0_1_n_n) none _ _ (ix2 p q)).trans ?_
  rw [← Equiv.sum_comp (contrEquiv1 (dot_S5000x64_S64x6_S5000x6_1_0_0_1_n_n) 64 rfl rfl).symm]
  refine Finset.sum_congr rfl fun k _ => ?_
  have hk := contrEquiv1_symm_val (dot_S5000x64_S64x6_S5000x6_1_0_0_1_n_n) 64 rfl rfl k
  have el : (dot_S5000x64_S64x6_S5000x6_1_0_0_1_n_n).lhsIdx (ix2 p q) ((contrEquiv1 (dot_S5000x64_S64x6_S5000x6_1_0_0_1_n_n) 64 rfl rfl).symm k) = ix2 p k :=
    funext fun a => Fin.ext (by
      match a with
      | ⟨0, _⟩ => exact c_lhs_row _ _
      | ⟨1, _⟩ => exact (c_lhs_col _ _).trans hk)
  have er : (dot_S5000x64_S64x6_S5000x6_1_0_0_1_n_n).rhsIdx (ix2 p q) ((contrEquiv1 (dot_S5000x64_S64x6_S5000x6_1_0_0_1_n_n) 64 rfl rfl).symm k) = ix2 k q :=
    funext fun a => Fin.ext (by
      match a with
      | ⟨0, _⟩ => exact (c_rhs_row _ _).trans hk
      | ⟨1, _⟩ => exact c_rhs_col _ _)
  rw [el, er]

/-! ## The two stored values at an index -/

/-- The embedding block at (p, q): the projection row sum plus the bias row's entry q, then the maximum with zero
    (the casts to the same shape and the changes of float format are the identity). -/
theorem emb_payload_apply (x : Vec Ideal S5000x64 .f32) (w : Vec Ideal S64x64 .f32) (b : Vec Ideal S1x64 .f32) (p : Fin 5000) (q : Fin 64) :
    k2_pay1 (F := Ideal) x w b (ix2 p q)
      = max ((∑ k : Fin 64, x (ix2 p k) * w (ix2 k q)) + b (ix2 (0 : Fin 1) q)) (Ideal.ofBits .f32 0x00000000#32) := by
  unfold k2_pay1
  refine (maximumf_apply _ _ (ix2 p q)).trans ?_
  refine congrArg₂ max ((addf_apply _ _ (ix2 p q)).trans (congrArg₂ (· + ·) ?_ ?_)) rfl
  · refine (proj_apply _ _ p q).trans ?_
    refine Finset.sum_congr rfl fun k _ => ?_
    show (shapeCast S5000x64 x shapeCasts_S5000x64_S5000x64) (ix2 p k) * w (ix2 k q) = _
    rw [shapeCast_self]
  · refine (broadcastTo_1b_ab_apply _ _ p q).trans ?_
    rw [shapeCast_self]

/-- The logits block at (p, q): the classifier row sum over the embedding block's row p, plus the bias row's entry q. -/
theorem logit_payload_apply (x : Vec Ideal S5000x64 .f32) (w : Vec Ideal S64x64 .f32) (b : Vec Ideal S1x64 .f32)
    (wc : Vec Ideal S64x6 .f32) (bc : Vec Ideal S1x6 .f32) (p : Fin 5000) (q : Fin 6) :
    k2_pay2 (F := Ideal) x w b wc bc (ix2 p q)
      = (∑ k : Fin 64, k2_pay1 (F := Ideal) x w b (ix2 p k) * wc (ix2 k q)) + bc (ix2 (0 : Fin 1) q) := by
  unfold k2_pay2
  refine (addf_apply _ _ (ix2 p q)).trans (congrArg₂ (· + ·) ?_ ?_)
  · exact cls_apply _ _ p q
  · refine (broadcastTo_1b_ab_apply _ _ p q).trans ?_
    rw [shapeCast_self]

/-! ## One entry of one block against the whole-array expressions -/

/-- If the loaded row block x is rows 5000·r … of A0, w is all of A1 and b all of B, the embedding block's entry at y
    is the whole-array expression's entry at the array index i that y sits at. -/
theorem emb_block_entry (A0 : (⟨2, ![100000, 64]⟩ : Shape).Idx → EReal) (A1 : (⟨2, ![64, 64]⟩ : Shape).Idx → EReal)
    (B : (⟨2, ![1, 64]⟩ : Shape).Idx → EReal)
    (x : Vec Ideal S5000x64 .f32) (w : Vec Ideal S64x64 .f32) (b : Vec Ideal S1x64 .f32) (r : Nat)
    (hx : ∀ (u : S5000x64.Idx) (v : (⟨2, ![100000, 64]⟩ : Shape).Idx), (v 0).val = r * 5000 + (u 0).val → (v 1).val = (u 1).val → x u = A0 v)
    (hw : ∀ (u : S64x64.Idx) (v : (⟨2, ![64, 64]⟩ : Shape).Idx), (v 0).val = (u 0).val → (v 1).val = (u 1).val → w u = A1 v)
    (hb : ∀ (u : S1x64.Idx) (v : (⟨2, ![1, 64]⟩ : Shape).Idx), (v 1).val = (u 1).val → b u = B v)
    (y : S5000x64.Idx) (i : (⟨2, ![100000, 64]⟩ : Shape).Idx) (hi0 : (i 0).val = r * 5000 + (y 0).val) (hi1 : (i 1).val = (y 1).val) :
    k2_pay1 (F := Ideal) x w b y = Cert.Spec.relu (Cert.Spec.addRow (Cert.Spec.mm A0 A1) B) i := by
  obtain ⟨p, q, rfl⟩ : ∃ (p : Fin 5000) (q : Fin 64), y = ix2 p q := ⟨y 0, y 1, eq_ix2 y⟩
  rw [emb_payload_apply]
  unfold Cert.Spec.relu Cert.Spec.addRow Cert.Spec.mm
  refine congrArg₂ max (congrArg₂ (· + ·) (Finset.sum_congr rfl fun k _ => ?_) ?_) rfl
  · rw [hx (ix2 p k) (ix2 (⟨(i 0).val, (i 0).isLt⟩ : Fin 100000) k) hi0 rfl, hw (ix2 k q) (ix2 k (⟨(i 1).val, (i 1).isLt⟩ : Fin 64)) rfl hi1]
  · exact hb (ix2 (0 : Fin 1) q) (ix2 (0 : Fin 1) (⟨(i 1).val, (i 1).isLt⟩ : Fin 64)) hi1

/-- The same for the logits block. -/
theorem logit_block_entry (A0 : (⟨2, ![100000, 64]⟩ : Shape).Idx → EReal) (A1 : (⟨2, ![64, 64]⟩ : Shape).Idx → EReal)
    (B : (⟨2, ![1, 64]⟩ : Shape).Idx → EReal) (C : (⟨2, ![64, 6]⟩ : Shape).Idx → EReal) (Bc : (⟨2, ![1, 6]⟩ : Shape).Idx → EReal)
    (x : Vec Ideal S5000x64 .f32) (w : Vec Ideal S64x64 .f32) (b : Vec Ideal S1x64 .f32) (wc : Vec Ideal S64x6 .f32) (bc : Vec Ideal S1x6 .f32) (r : Nat)
    (hx : ∀ (u : S5000x64.Idx) (v : (⟨2, ![100000, 64]⟩ : Shape).Idx), (v 0).val = r * 5000 + (u 0).val → (v 1).val = (u 1).val → x u = A0 v)
    (hw : ∀ (u : S64x64.Idx) (v : (⟨2, ![64, 64]⟩ : Shape).Idx), (v 0).val = (u 0).val → (v 1).val = (u 1).val → w u = A1 v)
    (hb : ∀ (u : S1x64.Idx) (v : (⟨2, ![1, 64]⟩ : Shape).Idx), (v 1).val = (u 1).val → b u = B v)
    (hwc : ∀ (u : S64x6.Idx) (v : (⟨2, ![64, 6]⟩ : Shape).Idx), (v 0).val = (u 0).val → (v 1).val = (u 1).val → wc u = C v)
    (hbc : ∀ (u : S1x6.Idx) (v : (⟨2, ![1, 6]⟩ : Shape).Idx), (v 1).val = (u 1).val → bc u = Bc v)
    (y : S5000x6.Idx) (i : (⟨2, ![100000, 6]⟩ : Shape).Idx) (hi0 : (i 0).val = r * 5000 + (y 0).val) (hi1 : (i 1).val = (y 1).val) :
    k2_pay2 (F := Ideal) x w b wc bc y
      = Cert.Spec.addRow (Cert.Spec.mm (Cert.Spec.relu (Cert.Spec.addRow (Cert.Spec.mm A0 A1) B)) C) Bc i := by
  obtain ⟨p, q, rfl⟩ : ∃ (p : Fin 5000) (q : Fin 6), y = ix2 p q := ⟨y 0, y 1, eq_ix2 y⟩
  rw [logit_payload_apply]
  show _ = Cert.Spec.mm (Cert.Spec.relu (Cert.Spec.addRow (Cert.Spec.mm A0 A1) B)) C i + Bc (ix2 (0 : Fin 1) (⟨(i 1).val, (i 1).isLt⟩ : Fin 6))
  refine congrArg₂ (· + ·) ?_ (hbc (ix2 (0 : Fin 1) q) (ix2 (0 : Fin 1) (⟨(i 1).val, (i 1).isLt⟩ : Fin 6)) hi1)
  show _ = ∑ k : Fin 64, Cert.Spec.relu (Cert.Spec.addRow (Cert.Spec.mm A0 A1) B) (ix2 (⟨(i 0).val, (i 0).isLt⟩ : Fin 100000) k) * C (ix2 k (⟨(i 1).val, (i 1).isLt⟩ : Fin 6))
  refine Finset.sum_congr rfl fun k _ => ?_
  rw [emb_block_entry A0 A1 B x w b r hx hw hb (ix2 p k) (ix2 (⟨(i 0).val, (i 0).isLt⟩ : Fin 100000) k) hi0 rfl,
    hwc (ix2 k q) (ix2 k (⟨(i 1).val, (i 1).isLt⟩ : Fin 6)) rfl hi1]

/-! ## From the blocks to the arrays -/

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the twenty grid points: both outputs' row blocks move with the activations' row
    block, every other block index is zero, and the row block index is below twenty. -/
theorem index_facts : ∀ t : Fin cfg2.N, win2_5.index t (0 : Fin 2) = win2_0.index t (0 : Fin 2)
    ∧ win2_6.index t (0 : Fin 2) = win2_0.index t (0 : Fin 2)
    ∧ win2_0.index t (1 : Fin 2) = 0 ∧ win2_5.index t (1 : Fin 2) = 0 ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_0.index t (0 : Fin 2) ≤ 19 :=
  (by decide +kernel : ∀ t : Fin grid2.N, _)

/-- Every row block of either output is some grid point's. -/
theorem index_onto5 : ∀ b : Fin 20, ∃ t : Fin cfg2.N, win2_5.index t = ![b.val, 0] :=
  (by decide +kernel : ∀ b : Fin 20, ∃ t : Fin grid2.N, win2_5.index t = ![b.val, 0])
theorem index_onto6 : ∀ b : Fin 20, ∃ t : Fin cfg2.N, win2_6.index t = ![b.val, 0] :=
  (by decide +kernel : ∀ b : Fin 20, ∃ t : Fin grid2.N, win2_6.index t = ![b.val, 0])

/-- The embedding the region computes, as one whole-array expression of the arrays the region found. -/
abbrev embOf (c : Dev nD) : (⟨2, ![100000, 64]⟩ : Shape).Idx → EReal :=
  Cert.Spec.relu (Cert.Spec.addRow (Cert.Spec.mm (V c main_v65) (V c main_arg6)) (V c main_v66))
/-- The logits the region computes, likewise. -/
abbrev logitsOf (c : Dev nD) : (⟨2, ![100000, 6]⟩ : Shape).Idx → EReal :=
  Cert.Spec.addRow (Cert.Spec.mm (embOf V c) (V c main_arg8)) (V c main_v67)

/-- The five input blocks at a point are where the block lemmas ask them to be. -/
theorem read0 (c : Dev nD) (t : Fin cfg2.N) (u : S5000x64.Idx) (v : (⟨2, ![100000, 64]⟩ : Shape).Idx)
    (h0 : (v 0).val = win2_0.index t (0 : Fin 2) * 5000 + (u 0).val) (h1 : (v 1).val = (u 1).val) :
    iblk2 V c 0 t u = V c main_v65 v := by
  obtain ⟨-, -, e2, -⟩ := index_facts t
  show V c main_v65 (((cfg2.win 0).blk t).view.emb u) = V c main_v65 v
  refine congrArg (V c main_v65) ?_
  funext a; apply Fin.ext
  match a with
  | ⟨0, _⟩ => show win2_0.index t (0 : Fin 2) * 5000 + 1 * (u 0).val = (v 0).val; omega
  | ⟨1, _⟩ => show win2_0.index t (1 : Fin 2) * 64 + 1 * (u 1).val = (v 1).val; omega
theorem read1 (c : Dev nD) (t : Fin cfg2.N) (u : S64x64.Idx) (v : (⟨2, ![64, 64]⟩ : Shape).Idx)
    (h0 : (v 0).val = (u 0).val) (h1 : (v 1).val = (u 1).val) : iblk2 V c 1 t u = V c main_arg6 v := by
  obtain ⟨-, -, -, -, -, e5, e6, -⟩ := index_facts t
  show V c main_arg6 (((cfg2.win 1).blk t).view.emb u) = V c main_arg6 v
  refine congrArg (V c main_arg6) ?_
  funext a; apply Fin.ext
  match a with
  | ⟨0, _⟩ => show win2_1.index t (0 : Fin 2) * 64 + 1 * (u 0).val = (v 0).val; omega
  | ⟨1, _⟩ => show win2_1.index t (1 : Fin 2) * 64 + 1 * (u 1).val = (v 1).val; omega
theorem read2 (c : Dev nD) (t : Fin cfg2.N) (u : S1x64.Idx) (v : (⟨2, ![1, 64]⟩ : Shape).Idx)
    (h1 : (v 1).val = (u 1).val) : iblk2 V c 2 t u = V c main_v66 v := by
  obtain ⟨-, -, -, -, -, -, -, e7, e8, -⟩ := index_facts t
  show V c main_v66 (((cfg2.win 2).blk t).view.emb u) = V c main_v66 v
  refine congrArg (V c main_v66) ?_
  funext a; apply Fin.ext
  match a with
  | ⟨0, _⟩ =>
    show win2_2.index t (0 : Fin 2) * 1 + 1 * (u 0).val = (v 0).val
    have hu : (u 0).val < 1 := (u 0).isLt
    have hv : (v 0).val < 1 := (v 0).isLt
    omega
  | ⟨1, _⟩ => show win2_2.index t (1 : Fin 2) * 64 + 1 * (u 1).val = (v 1).val; omega
theorem read3 (c : Dev nD) (t : Fin cfg2.N) (u : S64x6.Idx) (v : (⟨2, ![64, 6]⟩ : Shape).Idx)
    (h0 : (v 0).val = (u 0).val) (h1 : (v 1).val = (u 1).val) : iblk2 V c 3 t u = V c main_arg8 v := by
  obtain ⟨-, -, -, -, -, -, -, -, -, e9, e10, -⟩ := index_facts t
  show V c main_arg8 (((cfg2.win 3).blk t).view.emb u) = V c main_arg8 v
  refine congrArg (V c main_arg8) ?_
  funext a; apply Fin.ext
  match a with
  | ⟨0, _⟩ => show win2_3.index t (0 : Fin 2) * 64 + 1 * (u 0).val = (v 0).val; omega
  | ⟨1, _⟩ => show win2_3.index t (1 : Fin 2) * 6 + 1 * (u 1).val = (v 1).val; omega
theorem read4 (c : Dev nD) (t : Fin cfg2.N) (u : S1x6.Idx) (v : (⟨2, ![1, 6]⟩ : Shape).Idx)
    (h1 : (v 1).val = (u 1).val) : iblk2 V c 4 t u = V c main_v67 v := by
  obtain ⟨-, -, -, -, -, -, -, -, -, -, -, e11, e12, -⟩ := index_facts t
  show V c main_v67 (((cfg2.win 4).blk t).view.emb u) = V c main_v67 v
  refine congrArg (V c main_v67) ?_
  funext a; apply Fin.ext
  match a with
  | ⟨0, _⟩ =>
    show win2_4.index t (0 : Fin 2) * 1 + 1 * (u 0).val = (v 0).val
    have hu : (u 0).val < 1 := (u 0).isLt
    have hv : (v 0).val < 1 := (v 0).isLt
    omega
  | ⟨1, _⟩ => show win2_4.index t (1 : Fin 2) * 6 + 1 * (u 1).val = (v 1).val; omega

/-- What grid point t writes back to the embedding output is block t of the whole-array embedding. -/
theorem flushed6_eq (c : Dev nD) (t : Fin cfg2.N) :
    (dat2 V c).flushed 6 t = ((cfg2.win 6).blk t).view.read (Elt Ideal) (embOf V c) := by
  show (cfg2.win 6).cut (grid2.coords t) ((dat2 V c).after 6 t) = _
  rw [after2_6]
  unfold out2_6
  rw [View.canon_unit_zero off_zero]
  simp only [View.ld_unit_zero (S := S5000x64) off_zero, View.ld_unit_zero (S := S64x64) off_zero, View.ld_unit_zero (S := S1x64) off_zero]
  obtain ⟨e0, e1, e2, e3, e4, -⟩ := index_facts t
  funext j
  show k2_pay1 (F := Ideal) (iblk2 V c 0 t) (iblk2 V c 1 t) (iblk2 V c 2 t) ((cfg2.win 6).xinj (grid2.coords t) j)
    = embOf V c (((cfg2.win 6).blk t).view.emb j)
  refine emb_block_entry (V c main_v65) (V c main_arg6) (V c main_v66) (iblk2 V c 0 t) (iblk2 V c 1 t) (iblk2 V c 2 t)
    (win2_0.index t (0 : Fin 2)) (read0 V c t) (read1 V c t) (read2 V c t)
    ((cfg2.win 6).xinj (grid2.coords t) j) (((cfg2.win 6).blk t).view.emb j) ?_ ?_
  · show win2_6.index t (0 : Fin 2) * 5000 + 1 * (j 0).val = win2_0.index t (0 : Fin 2) * 5000 + (j 0).val; omega
  · show win2_6.index t (1 : Fin 2) * 64 + 1 * (j 1).val = (j 1).val; omega

/-- What grid point t writes back to the logits output is block t of the whole-array logits. -/
theorem flushed5_eq (c : Dev nD) (t : Fin cfg2.N) :
    (dat2 V c).flushed 5 t = ((cfg2.win 5).blk t).view.read (Elt Ideal) (logitsOf V c) := by
  show (cfg2.win 5).cut (grid2.coords t) ((dat2 V c).after 5 t) = _
  rw [after2_5]
  unfold out2_5
  rw [View.canon_unit_zero off_zero]
  simp only [View.ld_unit_zero (S := S5000x64) off_zero, View.ld_unit_zero (S := S64x64) off_zero, View.ld_unit_zero (S := S1x64) off_zero,
    View.ld_unit_zero (S := S64x6) off_zero, View.ld_unit_zero (S := S1x6) off_zero]
  obtain ⟨e0, e1, e2, e3, e4, -⟩ := index_facts t
  funext j
  show k2_pay2 (F := Ideal) (iblk2 V c 0 t) (iblk2 V c 1 t) (iblk2 V c 2 t) (iblk2 V c 3 t) (iblk2 V c 4 t) ((cfg2.win 5).xinj (grid2.coords t) j)
    = logitsOf V c (((cfg2.win 5).blk t).view.emb j)
  refine logit_block_entry (V c main_v65) (V c main_arg6) (V c main_v66) (V c main_arg8) (V c main_v67)
    (iblk2 V c 0 t) (iblk2 V c 1 t) (iblk2 V c 2 t) (iblk2 V c 3 t) (iblk2 V c 4 t)
    (win2_0.index t (0 : Fin 2)) (read0 V c t) (read1 V c t) (read2 V c t) (read3 V c t) (read4 V c t)
    ((cfg2.win 5).xinj (grid2.coords t) j) (((cfg2.win 5).blk t).view.emb j) ?_ ?_
  · show win2_5.index t (0 : Fin 2) * 5000 + 1 * (j 0).val = win2_0.index t (0 : Fin 2) * 5000 + (j 0).val; omega
  · show win2_5.index t (1 : Fin 2) * 6 + 1 * (j 1).val = (j 1).val; omega

/-- An index of an output array is in point t's block iff each coordinate is in the block's range on its axis. -/
theorem mem_block6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v68_1).slice (win2_6.rect t)).set ↔ _
  rw [View.set_slice_whole, Rect.mem_set_unit]
  exact Iff.rfl
theorem mem_block5 (t : Fin cfg2.N) (i : S100000x6.Idx) :
    i ∈ ((cfg2.win 5).blk t).view.set ↔ ∀ a : Fin 2, win2_5.index t a * S5000x6.size a ≤ (i a).val ∧ (i a).val < win2_5.index t a * S5000x6.size a + S5000x6.size a := by
  show i ∈ ((View.whole main_v68_0).slice (win2_5.rect t)).set ↔ _
  rw [View.set_slice_whole, Rect.mem_set_unit]
  exact Iff.rfl

/-- The twenty row blocks cover either output array: row r is in block r / 5000. -/
theorem covered6 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := index_onto6 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_block6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega
theorem covered5 (i : S100000x6.Idx) : ∃ t : Fin cfg2.N, (cfg2.win 5).flush t = true ∧ i ∈ ((cfg2.win 5).blk t).view.set := by
  have hi0 : (i 0).val < 100000 := (i 0).isLt
  have hi1 : (i 1).val < 6 := (i 1).isLt
  obtain ⟨t, ht⟩ := index_onto5 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 6 ≤ (i 1).val ∧ (i 1).val < win2_5.index t (1 : Fin 2) * 6 + 6; omega

/-- After region 2 the embedding output array is the whole-array embedding of the arrays the region found, -/
theorem emb_array_eq (c : Dev nD) : (dat2 V c).arrAt 6 cfg2.N = embOf V c :=
  (dat2 V c).arrAt_eq_of_cover 6 _ (fun t _ => flushed6_eq V c t) covered6
/-- and the logits output array the whole-array logits. -/
theorem logits_array_eq (c : Dev nD) : (dat2 V c).arrAt 5 cfg2.N = logitsOf V c :=
  (dat2 V c).arrAt_eq_of_cover 5 _ (fun t _ => flushed5_eq V c t) covered5

end Cert.KernelIdeal.Region2

end
-- ==== Proof.HostA.lean ====
/-
  The host operations before region 0, read back.  From any contents W of the buffers they leave: the source indices
  (the first edge row followed by 0 … n-1), the destination indices (the second edge row followed by 0 … n-1) and the
  symmetric normalisation weight of every edge (the inverse square root of the destination count at the source times
  the same at the destination, zero where the count is not positive) — each the reference's own stage function of the
  edge array, operation for operation, since the two programs print the same host operations here — and every
  argument array untouched.  Generic in the float instance.
-/
import proofs.«141832_j62371515072942_1_alg».proof.Proof.Gen.KernelIdeal.Launch
import proofs.«141832_j62371515072942_1_alg».proof.Proof.RefReadP
import Idealize.ShloMosaic.Lib.StableHlo.Run

set_option maxRecDepth 16384

noncomputable section

namespace Cert.KernelIdeal.HostA

open Cert.KernelIdeal Cert.KernelIdeal.Gen
open Idealize.ShloMosaic Idealize.ShloMosaic.TcCoe Idealize.SL.Sem Idealize.ShloMosaic.StableHlo

variable {F : FTy → Type} [FloatOps F]

/-- The buffer contents at region 0's entry, from contents W at the launch. -/
abbrev entry0 (W : Valuation τ sig (Elt F)) : Valuation τ sig (Elt F) :=
  after hostOps0_2 (after hostOps0_1 (after hostOps0 W))

theorem src_eq (W : Valuation τ sig (Elt F)) :
    entry0 W (Proc.devRef .tc main_v3) = Cert.ReferenceIdeal.ReadP.val_main_v3 (F := F) (W (Proc.devRef .tc main_arg1)) := by
  after_results_simp
  rfl

theorem dst_eq (W : Valuation τ sig (Elt F)) :
    entry0 W (Proc.devRef .tc main_v6) = Cert.ReferenceIdeal.ReadP.val_main_v6 (F := F) (W (Proc.devRef .tc main_arg1)) := by
  after_results_simp
  rfl

theorem norm_eq (W : Valuation τ sig (Elt F)) :
    entry0 W (Proc.devRef .tc main_v29) = Cert.ReferenceIdeal.ReadP.val_main_v29 (F := F) (W (Proc.devRef .tc main_arg1)) := by
  after_results_simp
  rfl

theorem A_keep_arg0 (W : Valuation τ sig (Elt F)) :
    entry0 W (Proc.devRef .tc main_arg0) = W (Proc.devRef .tc main_arg0) := by
  after_results_simp
theorem A_keep_arg2 (W : Valuation τ sig (Elt F)) :
    entry0 W (Proc.devRef .tc main_arg2) = W (Proc.devRef .tc main_arg2) := by
  after_results_simp
theorem A_keep_arg3 (W : Valuation τ sig (Elt F)) :
    entry0 W (Proc.devRef .tc main_arg3) = W (Proc.devRef .tc main_arg3) := by
  after_results_simp
theorem A_keep_arg4 (W : Valuation τ sig (Elt F)) :
    entry0 W (Proc.devRef .tc main_arg4) = W (Proc.devRef .tc main_arg4) := by
  after_results_simp
theorem A_keep_arg5 (W : Valuation τ sig (Elt F)) :
    entry0 W (Proc.devRef .tc main_arg5) = W (Proc.devRef .tc main_arg5) := by
  after_results_simp
theorem A_keep_arg6 (W : Valuation τ sig (Elt F)) :
    entry0 W (Proc.devRef .tc main_arg6) = W (Proc.devRef .tc main_arg6) := by
  after_results_simp
theorem A_keep_arg7 (W : Valuation τ sig (Elt F)) :
    entry0 W (Proc.devRef .tc main_arg7) = W (Proc.devRef .tc main_arg7) := by
  after_results_simp
theorem A_keep_arg8 (W : Valuation τ sig (Elt F)) :
    entry0 W (Proc.devRef .tc main_arg8) = W (Proc.devRef .tc main_arg8) := by
  after_results_simp
theorem A_keep_arg9 (W : Valuation τ sig (Elt F)) :
    entry0 W (Proc.devRef .tc main_arg9) = W (Proc.devRef .tc main_arg9) := by
  after_results_simp

end Cert.KernelIdeal.HostA

end
-- ==== Proof.HostB.lean ====
/-
  The host operations between region 0 and region 1, read back: the graph aggregation of the first layer.  From any
  contents W in which the dense product, the source and destination indices, the edge weights and the bias are the
  reference's stage values, the rectified aggregate they leave is the reference's stage value too: the rows of the
  product gathered at the sources, scaled by the edge weights, summed into the destinations, plus the bias, maximum
  with zero — the same operations in the same order in both programs.  The indices, the weights and the later
  arguments are untouched.  Generic in the float instance.
-/
import proofs.«141832_j62371515072942_1_alg».proof.Proof.Gen.KernelIdeal.Launch
import proofs.«141832_j62371515072942_1_alg».proof.Proof.RefReadP
import Idealize.ShloMosaic.Lib.StableHlo.Run

set_option maxRecDepth 16384

noncomputable section

namespace Cert.KernelIdeal.HostB

open Cert.KernelIdeal Cert.KernelIdeal.Gen
open Idealize.ShloMosaic Idealize.ShloMosaic.TcCoe Idealize.SL.Sem Idealize.ShloMosaic.StableHlo

variable {F : FTy → Type} [FloatOps F]

/-- The buffer contents at region 1's entry, from contents W at region 0's exit. -/
abbrev entry1 (W : Valuation τ sig (Elt F)) : Valuation τ sig (Elt F) :=
  after hostOps1_1 (after hostOps1 W)

theorem hidden_eq (W : Valuation τ sig (Elt F))
    (x0 : (⟨Cert.ReferenceIdeal.S100000x256, .f32⟩ : BufTy).Contents (Elt F)) (x1 : (⟨Cert.ReferenceIdeal.S2x1600000, .i32⟩ : BufTy).Contents (Elt F))
    (x2 : (⟨Cert.ReferenceIdeal.S256x64, .f32⟩ : BufTy).Contents (Elt F)) (x3 : (⟨Cert.ReferenceIdeal.S64, .f32⟩ : BufTy).Contents (Elt F))
    (hdense : W (Proc.devRef .tc main_v30) = Cert.ReferenceIdeal.ReadP.val_main_v30 (F := F) x0 x2)
    (hsrc : W (Proc.devRef .tc main_v3) = Cert.ReferenceIdeal.ReadP.val_main_v3 (F := F) x1)
    (hdst : W (Proc.devRef .tc main_v6) = Cert.ReferenceIdeal.ReadP.val_main_v6 (F := F) x1)
    (hnorm : W (Proc.devRef .tc main_v29) = Cert.ReferenceIdeal.ReadP.val_main_v29 (F := F) x1)
    (hbias : W (Proc.devRef .tc main_arg3) = x3) :
    entry1 W (Proc.devRef .tc main_v47) = Cert.ReferenceIdeal.ReadP.val_main_v47 (F := F) x0 x1 x2 x3 := by
  after_results_simp
  rw [hdense, hsrc, hdst, hnorm, hbias]
  rfl

theorem B_keep_v3 (W : Valuation τ sig (Elt F)) :
    entry1 W (Proc.devRef .tc main_v3) = W (Proc.devRef .tc main_v3) := by
  after_results_simp
theorem B_keep_v6 (W : Valuation τ sig (Elt F)) :
    entry1 W (Proc.devRef .tc main_v6) = W (Proc.devRef .tc main_v6) := by
  after_results_simp
theorem B_keep_v29 (W : Valuation τ sig (Elt F)) :
    entry1 W (Proc.devRef .tc main_v29) = W (Proc.devRef .tc main_v29) := by
  after_results_simp
theorem B_keep_arg4 (W : Valuation τ sig (Elt F)) :
    entry1 W (Proc.devRef .tc main_arg4) = W (Proc.devRef .tc main_arg4) := by
  after_results_simp
theorem B_keep_arg5 (W : Valuation τ sig (Elt F)) :
    entry1 W (Proc.devRef .tc main_arg5) = W (Proc.devRef .tc main_arg5) := by
  after_results_simp
theorem B_keep_arg6 (W : Valuation τ sig (Elt F)) :
    entry1 W (Proc.devRef .tc main_arg6) = W (Proc.devRef .tc main_arg6) := by
  after_results_simp
theorem B_keep_arg7 (W : Valuation τ sig (Elt F)) :
    entry1 W (Proc.devRef .tc main_arg7) = W (Proc.devRef .tc main_arg7) := by
  after_results_simp
theorem B_keep_arg8 (W : Valuation τ sig (Elt F)) :
    entry1 W (Proc.devRef .tc main_arg8) = W (Proc.devRef .tc main_arg8) := by
  after_results_simp
theorem B_keep_arg9 (W : Valuation τ sig (Elt F)) :
    entry1 W (Proc.devRef .tc main_arg9) = W (Proc.devRef .tc main_arg9) := by
  after_results_simp

end Cert.KernelIdeal.HostB

end
-- ==== Proof.HostC.lean ====
/-
  The host operations between region 1 and region 2, read back: the graph aggregation of the second layer and the
  two bias vectors recast as rows.  From any contents W in which the second dense product, the indices, the edge
  weights and the bias are the reference's stage values, the rectified aggregate is the reference's stage value; the
  head's two bias rows are the bias vectors cast to shape [1, n]; the head's weights are untouched.  Generic in the
  float instance.
-/
import proofs.«141832_j62371515072942_1_alg».proof.Proof.Gen.KernelIdeal.Launch
import proofs.«141832_j62371515072942_1_alg».proof.Proof.RefReadP
import Idealize.ShloMosaic.Lib.StableHlo.Run

set_option maxRecDepth 16384

noncomputable section

namespace Cert.KernelIdeal.HostC

open Cert.KernelIdeal Cert.KernelIdeal.Gen
open Idealize.ShloMosaic Idealize.ShloMosaic.TcCoe Idealize.SL.Sem Idealize.ShloMosaic.StableHlo

variable {F : FTy → Type} [FloatOps F]

/-- The buffer contents at region 2's entry, from contents W at region 1's exit. -/
abbrev entry2 (W : Valuation τ sig (Elt F)) : Valuation τ sig (Elt F) :=
  after hostOps2_2 (after hostOps2_1 (after hostOps2 W))

theorem hidden_eq (W : Valuation τ sig (Elt F))
    (x0 : (⟨Cert.ReferenceIdeal.S100000x256, .f32⟩ : BufTy).Contents (Elt F)) (x1 : (⟨Cert.ReferenceIdeal.S2x1600000, .i32⟩ : BufTy).Contents (Elt F))
    (x2 : (⟨Cert.ReferenceIdeal.S256x64, .f32⟩ : BufTy).Contents (Elt F)) (x3 : (⟨Cert.ReferenceIdeal.S64, .f32⟩ : BufTy).Contents (Elt F))
    (x4 : (⟨Cert.ReferenceIdeal.S64x64, .f32⟩ : BufTy).Contents (Elt F)) (x5 : (⟨Cert.ReferenceIdeal.S64, .f32⟩ : BufTy).Contents (Elt F))
    (hdense : W (Proc.devRef .tc main_v48) = Cert.ReferenceIdeal.ReadP.val_main_v48 (F := F) x0 x1 x2 x3 x4)
    (hsrc : W (Proc.devRef .tc main_v3) = Cert.ReferenceIdeal.ReadP.val_main_v3 (F := F) x1)
    (hdst : W (Proc.devRef .tc main_v6) = Cert.ReferenceIdeal.ReadP.val_main_v6 (F := F) x1)
    (hnorm : W (Proc.devRef .tc main_v29) = Cert.ReferenceIdeal.ReadP.val_main_v29 (F := F) x1)
    (hbias : W (Proc.devRef .tc main_arg5) = x5) :
    entry2 W (Proc.devRef .tc main_v65) = Cert.ReferenceIdeal.ReadP.val_main_v65 (F := F) x0 x1 x2 x3 x4 x5 := by
  after_results_simp
  rw [hdense, hsrc, hdst, hnorm, hbias]
  rfl

theorem proj_bias_eq (W : Valuation τ sig (Elt F)) :
    entry2 W (Proc.devRef .tc main_v66) = shapeCast S1x64 (W (Proc.devRef .tc main_arg7)) shapeCasts_S64_S1x64 := by
  after_results_simp
  rfl

theorem cls_bias_eq (W : Valuation τ sig (Elt F)) :
    entry2 W (Proc.devRef .tc main_v67) = shapeCast S1x6 (W (Proc.devRef .tc main_arg9)) shapeCasts_S6_S1x6 := by
  after_results_simp
  rfl

theorem C_keep_arg6 (W : Valuation τ sig (Elt F)) :
    entry2 W (Proc.devRef .tc main_arg6) = W (Proc.devRef .tc main_arg6) := by
  after_results_simp
theorem C_keep_arg8 (W : Valuation τ sig (Elt F)) :
    entry2 W (Proc.devRef .tc main_arg8) = W (Proc.devRef .tc main_arg8) := by
  after_results_simp

end Cert.KernelIdeal.HostC

end
-- ==== Proof.Bridge.lean ====
/-
  The reference's stage functions against the specification's vocabulary, on the extended reals.  Each of the
  reference's four dot_general stages is the matrix product of its operands' stage values (the generated read of a
  dot_general is the sum over the contracted coordinate; only the spelling of the two operand indices differs), its
  embedding stage is the rectified product plus the projection bias on every row, and its logits stage the classifier
  product of the embedding plus the classifier bias on every row.  A bias enters through any row array whose entry q is
  the bias vector's entry q: the kernel's host side casts the vector to shape [1, n], the reference broadcasts it.
-/
import proofs.«141832_j62371515072942_1_alg».proof.Proof.RefReadP
import proofs.«141832_j62371515072942_1_alg».proof.Proof.Spec
import Idealize.ShloMosaic.Lib.ValueIdx
import Idealize.ShloMosaic.PureOps.Ideal.Laws

set_option maxRecDepth 16384

noncomputable section

namespace Cert.Bridge

open Cert.ReferenceIdeal Cert.ReferenceIdeal.ReadP
open Idealize.ShloMosaic Idealize.ShloMosaic.TcCoe Idealize.SL.Sem Idealize.ShloMosaic.ValueIdx

/-! ## The operand indices of the four products, spelt by coordinates -/

theorem lidx30 (i : S100000x64.Idx) (k : Fin 256) :
    lidx_main_v30 i k = ix2 (⟨(i 0).val, (i 0).isLt⟩ : Fin 100000) k :=
  funext fun a => by match a with | ⟨0, _⟩ => rfl | ⟨1, _⟩ => rfl
theorem ridx30 (i : S100000x64.Idx) (k : Fin 256) :
    ridx_main_v30 i k = ix2 k (⟨(i 1).val, (i 1).isLt⟩ : Fin 64) :=
  funext fun a => by match a with | ⟨0, _⟩ => rfl | ⟨1, _⟩ => rfl
theorem lidx48 (i : S100000x64.Idx) (k : Fin 64) :
    lidx_main_v48 i k = ix2 (⟨(i 0).val, (i 0).isLt⟩ : Fin 100000) k :=
  funext fun a => by match a with | ⟨0, _⟩ => rfl | ⟨1, _⟩ => rfl
theorem ridx48 (i : S100000x64.Idx) (k : Fin 64) :
    ridx_main_v48 i k = ix2 k (⟨(i 1).val, (i 1).isLt⟩ : Fin 64) :=
  funext fun a => by match a with | ⟨0, _⟩ => rfl | ⟨1, _⟩ => rfl
theorem lidx66 (i : S100000x64.Idx) (k : Fin 64) :
    lidx_main_v66 i k = ix2 (⟨(i 0).val, (i 0).isLt⟩ : Fin 100000) k :=
  funext fun a => by match a with | ⟨0, _⟩ => rfl | ⟨1, _⟩ => rfl
theorem ridx66 (i : S100000x64.Idx) (k : Fin 64) :
    ridx_main_v66 i k = ix2 k (⟨(i 1).val, (i 1).isLt⟩ : Fin 64) :=
  funext fun a => by match a with | ⟨0, _⟩ => rfl | ⟨1, _⟩ => rfl
theorem lidx71 (i : S100000x6.Idx) (k : Fin 64) :
    lidx_main_v71 i k = ix2 (⟨(i 0).val, (i 0).isLt⟩ : Fin 100000) k :=
  funext fun a => by match a with | ⟨0, _⟩ => rfl | ⟨1, _⟩ => rfl
theorem ridx71 (i : S100000x6.Idx) (k : Fin 64) :
    ridx_main_v71 i k = ix2 k (⟨(i 1).val, (i 1).isLt⟩ : Fin 6) :=
  funext fun a => by match a with | ⟨0, _⟩ => rfl | ⟨1, _⟩ => rfl
/-- The projection bias as the reference broadcasts it reads the vector at the column. -/
theorem bidx68 (i : S100000x64.Idx) : idx_main_v67 (idx_main_v68 i) = ix1 (⟨(i 1).val, (i 1).isLt⟩ : Fin 64) :=
  funext fun a => by match a with | ⟨0, _⟩ => rfl
/-- The classifier bias likewise. -/
theorem bidx73 (i : S100000x6.Idx) : idx_main_v72 (idx_main_v73 i) = ix1 (⟨(i 1).val, (i 1).isLt⟩ : Fin 6) :=
  funext fun a => by match a with | ⟨0, _⟩ => rfl

/-! ## The stages -/

/-- The first layer's dense stage is the product of the features and the first weight. -/
theorem dense1_eq (x0 : (⟨S100000x256, .f32⟩ : BufTy).Contents (Elt Ideal)) (x2 : (⟨S256x64, .f32⟩ : BufTy).Contents (Elt Ideal)) :
    val_main_v30 (F := Ideal) x0 x2 = Cert.Spec.mm x0 x2 := by
  funext i
  rw [val_main_v30_apply]
  unfold Cert.Spec.mm
  refine Finset.sum_congr rfl fun k _ => ?_
  rw [lidx30, ridx30]

/-- The second layer's dense stage is the product of the first layer's output and the second weight. -/
theorem dense2_eq (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x64, .f32⟩ : BufTy).Contents (Elt Ideal)) :
    val_main_v48 (F := Ideal) x0 x1 x2 x3 x4 = Cert.Spec.mm (val_main_v47 (F := Ideal) x0 x1 x2 x3) x4 := by
  funext i
  rw [val_main_v48_apply]
  unfold Cert.Spec.mm
  refine Finset.sum_congr rfl fun k _ => ?_
  rw [lidx48, ridx48]

/-- The embedding stage: the rectified projection of the second layer's output plus the bias row. -/
theorem emb_eq (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (B : (⟨2, ![1, 64]⟩ : Shape).Idx → EReal) (hB : ∀ q : Fin 64, B (ix2 (0 : Fin 1) q) = x7 (ix1 q)) :
    val_main_v70 (F := Ideal) x0 x1 x2 x3 x4 x5 x6 x7
      = Cert.Spec.relu (Cert.Spec.addRow (Cert.Spec.mm (val_main_v65 (F := Ideal) x0 x1 x2 x3 x4 x5) x6) B) := by
  funext i
  rw [val_main_v70_apply, val_main_v69_apply, val_main_v66_apply, val_main_v68_apply, val_main_v67_apply,
    val_main_call3_v0_apply, val_main_call3_cst_apply, bidx68]
  unfold Cert.Spec.relu Cert.Spec.addRow Cert.Spec.mm
  refine congrArg₂ max (congrArg₂ (· + ·) (Finset.sum_congr rfl fun k _ => ?_) (hB _).symm) rfl
  rw [lidx66, ridx66]

/-- The logits stage: the classifier product of the embedding stage plus the bias row. -/
theorem logits_eq (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x6, .f32⟩ : BufTy).Contents (Elt Ideal)) (x9 : (⟨S6, .f32⟩ : BufTy).Contents (Elt Ideal))
    (Bc : (⟨2, ![1, 6]⟩ : Shape).Idx → EReal) (hBc : ∀ q : Fin 6, Bc (ix2 (0 : Fin 1) q) = x9 (ix1 q)) :
    val_main_v74 (F := Ideal) x0 x1 x2 x3 x4 x5 x6 x7 x8 x9
      = Cert.Spec.addRow (Cert.Spec.mm (val_main_v70 (F := Ideal) x0 x1 x2 x3 x4 x5 x6 x7) x8) Bc := by
  funext i
  rw [val_main_v74_apply, val_main_v71_apply, val_main_v73_apply, val_main_v72_apply, bidx73]
  unfold Cert.Spec.addRow Cert.Spec.mm
  refine congrArg₂ (· + ·) (Finset.sum_congr rfl fun k _ => ?_) (hBc _).symm
  rw [lidx71, ridx71]

end Cert.Bridge

end
-- ==== Proof.Boundaries.lean ====
/-
  The idealized kernel's two result arrays as the reference's own stage functions of the launch arguments.
  The contents of the buffers at each boundary of the run are followed from the launch to the return:
  the host stretches by their read-backs (the same operations as the reference's, so the reference's stage functions),
  the three regions by their whole-array values (matrix products, and the head), the products and the head matched with
  the reference's dot_general, bias and rectifier stages.  At the return the logits buffer holds the reference's logits
  stage and the embedding buffer the reference's embedding stage, of the kernel's own launch arguments.
-/
import proofs.«141832_j62371515072942_1_alg».proof.Proof.Gen.KernelIdeal.Frame
import proofs.«141832_j62371515072942_1_alg».proof.Proof.Region0
import proofs.«141832_j62371515072942_1_alg».proof.Proof.Region1
import proofs.«141832_j62371515072942_1_alg».proof.Proof.Region2
import proofs.«141832_j62371515072942_1_alg».proof.Proof.HostA
import proofs.«141832_j62371515072942_1_alg».proof.Proof.HostB
import proofs.«141832_j62371515072942_1_alg».proof.Proof.HostC
import proofs.«141832_j62371515072942_1_alg».proof.Proof.Bridge
import Idealize.ShloMosaic.Lib.ValueLayout

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## At region 0's entry -/

theorem e0_src : W3 m ρ c (Proc.devRef .tc main_v3) = Cert.ReferenceIdeal.ReadP.val_main_v3 (F := Ideal) (m ((c : Thread nD τ).loc main_arg1)) :=
  HostA.src_eq (W0 m ρ c)
theorem e0_dst : W3 m ρ c (Proc.devRef .tc main_v6) = Cert.ReferenceIdeal.ReadP.val_main_v6 (F := Ideal) (m ((c : Thread nD τ).loc main_arg1)) :=
  HostA.dst_eq (W0 m ρ c)
theorem e0_norm : W3 m ρ c (Proc.devRef .tc main_v29) = Cert.ReferenceIdeal.ReadP.val_main_v29 (F := Ideal) (m ((c : Thread nD τ).loc main_arg1)) :=
  HostA.norm_eq (W0 m ρ c)
theorem e0_arg0 : W3 m ρ c (Proc.devRef .tc main_arg0) = (m ((c : Thread nD τ).loc main_arg0)) :=
  HostA.A_keep_arg0 (W0 m ρ c)
theorem e0_arg2 : W3 m ρ c (Proc.devRef .tc main_arg2) = (m ((c : Thread nD τ).loc main_arg2)) :=
  HostA.A_keep_arg2 (W0 m ρ c)
theorem e0_arg3 : W3 m ρ c (Proc.devRef .tc main_arg3) = (m ((c : Thread nD τ).loc main_arg3)) :=
  HostA.A_keep_arg3 (W0 m ρ c)
theorem e0_arg4 : W3 m ρ c (Proc.devRef .tc main_arg4) = (m ((c : Thread nD τ).loc main_arg4)) :=
  HostA.A_keep_arg4 (W0 m ρ c)
theorem e0_arg5 : W3 m ρ c (Proc.devRef .tc main_arg5) = (m ((c : Thread nD τ).loc main_arg5)) :=
  HostA.A_keep_arg5 (W0 m ρ c)
theorem e0_arg6 : W3 m ρ c (Proc.devRef .tc main_arg6) = (m ((c : Thread nD τ).loc main_arg6)) :=
  HostA.A_keep_arg6 (W0 m ρ c)
theorem e0_arg7 : W3 m ρ c (Proc.devRef .tc main_arg7) = (m ((c : Thread nD τ).loc main_arg7)) :=
  HostA.A_keep_arg7 (W0 m ρ c)
theorem e0_arg8 : W3 m ρ c (Proc.devRef .tc main_arg8) = (m ((c : Thread nD τ).loc main_arg8)) :=
  HostA.A_keep_arg8 (W0 m ρ c)
theorem e0_arg9 : W3 m ρ c (Proc.devRef .tc main_arg9) = (m ((c : Thread nD τ).loc main_arg9)) :=
  HostA.A_keep_arg9 (W0 m ρ c)

/-! ## At region 0's exit -/

/-- The first dense product is the reference's first dot_general stage. -/
theorem x0_dense : W4 m ρ c (Proc.devRef .tc main_v30) = Cert.ReferenceIdeal.ReadP.val_main_v30 (F := Ideal) (m ((c : Thread nD τ).loc main_arg0)) (m ((c : Thread nD τ).loc main_arg2)) := by
  rw [Cert.Bridge.dense1_eq]
  exact (W4_arr m ρ c 2).trans ((Region0.array_eq (V3 m ρ) c).trans (congrArg₂ Cert.Spec.mm (e0_arg0 m ρ c) (e0_arg2 m ρ c)))
theorem x0_src : W4 m ρ c (Proc.devRef .tc main_v3) = Cert.ReferenceIdeal.ReadP.val_main_v3 (F := Ideal) (m ((c : Thread nD τ).loc main_arg1)) :=
  (W4_of_ne m ρ c main_v3 (by decide)).trans (e0_src m ρ c)
theorem x0_dst : W4 m ρ c (Proc.devRef .tc main_v6) = Cert.ReferenceIdeal.ReadP.val_main_v6 (F := Ideal) (m ((c : Thread nD τ).loc main_arg1)) :=
  (W4_of_ne m ρ c main_v6 (by decide)).trans (e0_dst m ρ c)
theorem x0_norm : W4 m ρ c (Proc.devRef .tc main_v29) = Cert.ReferenceIdeal.ReadP.val_main_v29 (F := Ideal) (m ((c : Thread nD τ).loc main_arg1)) :=
  (W4_of_ne m ρ c main_v29 (by decide)).trans (e0_norm m ρ c)
theorem x0_arg3 : W4 m ρ c (Proc.devRef .tc main_arg3) = (m ((c : Thread nD τ).loc main_arg3)) :=
  (W4_of_ne m ρ c main_arg3 (by decide)).trans (e0_arg3 m ρ c)
theorem x0_arg4 : W4 m ρ c (Proc.devRef .tc main_arg4) = (m ((c : Thread nD τ).loc main_arg4)) :=
  (W4_of_ne m ρ c main_arg4 (by decide)).trans (e0_arg4 m ρ c)
theorem x0_arg5 : W4 m ρ c (Proc.devRef .tc main_arg5) = (m ((c : Thread nD τ).loc main_arg5)) :=
  (W4_of_ne m ρ c main_arg5 (by decide)).trans (e0_arg5 m ρ c)
theorem x0_arg6 : W4 m ρ c (Proc.devRef .tc main_arg6) = (m ((c : Thread nD τ).loc main_arg6)) :=
  (W4_of_ne m ρ c main_arg6 (by decide)).trans (e0_arg6 m ρ c)
theorem x0_arg7 : W4 m ρ c (Proc.devRef .tc main_arg7) = (m ((c : Thread nD τ).loc main_arg7)) :=
  (W4_of_ne m ρ c main_arg7 (by decide)).trans (e0_arg7 m ρ c)
theorem x0_arg8 : W4 m ρ c (Proc.devRef .tc main_arg8) = (m ((c : Thread nD τ).loc main_arg8)) :=
  (W4_of_ne m ρ c main_arg8 (by decide)).trans (e0_arg8 m ρ c)
theorem x0_arg9 : W4 m ρ c (Proc.devRef .tc main_arg9) = (m ((c : Thread nD τ).loc main_arg9)) :=
  (W4_of_ne m ρ c main_arg9 (by decide)).trans (e0_arg9 m ρ c)

/-! ## At region 1's entry -/

/-- The first layer's rectified aggregate is the reference's. -/
theorem e1_hidden : W6 m ρ c (Proc.devRef .tc main_v47) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) :=
  HostB.hidden_eq (W4 m ρ c) _ _ _ _ (x0_dense m ρ c) (x0_src m ρ c) (x0_dst m ρ c) (x0_norm m ρ c) (x0_arg3 m ρ c)
theorem e1_src : W6 m ρ c (Proc.devRef .tc main_v3) = Cert.ReferenceIdeal.ReadP.val_main_v3 (F := Ideal) (m ((c : Thread nD τ).loc main_arg1)) :=
  (HostB.B_keep_v3 (W4 m ρ c)).trans (x0_src m ρ c)
theorem e1_dst : W6 m ρ c (Proc.devRef .tc main_v6) = Cert.ReferenceIdeal.ReadP.val_main_v6 (F := Ideal) (m ((c : Thread nD τ).loc main_arg1)) :=
  (HostB.B_keep_v6 (W4 m ρ c)).trans (x0_dst m ρ c)
theorem e1_norm : W6 m ρ c (Proc.devRef .tc main_v29) = Cert.ReferenceIdeal.ReadP.val_main_v29 (F := Ideal) (m ((c : Thread nD τ).loc main_arg1)) :=
  (HostB.B_keep_v29 (W4 m ρ c)).trans (x0_norm m ρ c)
theorem e1_arg4 : W6 m ρ c (Proc.devRef .tc main_arg4) = (m ((c : Thread nD τ).loc main_arg4)) :=
  (HostB.B_keep_arg4 (W4 m ρ c)).trans (x0_arg4 m ρ c)
theorem e1_arg5 : W6 m ρ c (Proc.devRef .tc main_arg5) = (m ((c : Thread nD τ).loc main_arg5)) :=
  (HostB.B_keep_arg5 (W4 m ρ c)).trans (x0_arg5 m ρ c)
theorem e1_arg6 : W6 m ρ c (Proc.devRef .tc main_arg6) = (m ((c : Thread nD τ).loc main_arg6)) :=
  (HostB.B_keep_arg6 (W4 m ρ c)).trans (x0_arg6 m ρ c)
theorem e1_arg7 : W6 m ρ c (Proc.devRef .tc main_arg7) = (m ((c : Thread nD τ).loc main_arg7)) :=
  (HostB.B_keep_arg7 (W4 m ρ c)).trans (x0_arg7 m ρ c)
theorem e1_arg8 : W6 m ρ c (Proc.devRef .tc main_arg8) = (m ((c : Thread nD τ).loc main_arg8)) :=
  (HostB.B_keep_arg8 (W4 m ρ c)).trans (x0_arg8 m ρ c)
theorem e1_arg9 : W6 m ρ c (Proc.devRef .tc main_arg9) = (m ((c : Thread nD τ).loc main_arg9)) :=
  (HostB.B_keep_arg9 (W4 m ρ c)).trans (x0_arg9 m ρ c)

/-! ## At region 1's exit -/

/-- The second dense product is the reference's second dot_general stage. -/
theorem x1_dense : W7 m ρ c (Proc.devRef .tc main_v48) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.Bridge.dense2_eq]
  exact (W7_arr m ρ c 2).trans ((Region1.array_eq (V6 m ρ) c).trans (congrArg₂ Cert.Spec.mm (e1_hidden m ρ c) (e1_arg4 m ρ c)))
theorem x1_src : W7 m ρ c (Proc.devRef .tc main_v3) = Cert.ReferenceIdeal.ReadP.val_main_v3 (F := Ideal) (m ((c : Thread nD τ).loc main_arg1)) :=
  (W7_of_ne m ρ c main_v3 (by decide)).trans (e1_src m ρ c)
theorem x1_dst : W7 m ρ c (Proc.devRef .tc main_v6) = Cert.ReferenceIdeal.ReadP.val_main_v6 (F := Ideal) (m ((c : Thread nD τ).loc main_arg1)) :=
  (W7_of_ne m ρ c main_v6 (by decide)).trans (e1_dst m ρ c)
theorem x1_norm : W7 m ρ c (Proc.devRef .tc main_v29) = Cert.ReferenceIdeal.ReadP.val_main_v29 (F := Ideal) (m ((c : Thread nD τ).loc main_arg1)) :=
  (W7_of_ne m ρ c main_v29 (by decide)).trans (e1_norm m ρ c)
theorem x1_arg5 : W7 m ρ c (Proc.devRef .tc main_arg5) = (m ((c : Thread nD τ).loc main_arg5)) :=
  (W7_of_ne m ρ c main_arg5 (by decide)).trans (e1_arg5 m ρ c)
theorem x1_arg6 : W7 m ρ c (Proc.devRef .tc main_arg6) = (m ((c : Thread nD τ).loc main_arg6)) :=
  (W7_of_ne m ρ c main_arg6 (by decide)).trans (e1_arg6 m ρ c)
theorem x1_arg7 : W7 m ρ c (Proc.devRef .tc main_arg7) = (m ((c : Thread nD τ).loc main_arg7)) :=
  (W7_of_ne m ρ c main_arg7 (by decide)).trans (e1_arg7 m ρ c)
theorem x1_arg8 : W7 m ρ c (Proc.devRef .tc main_arg8) = (m ((c : Thread nD τ).loc main_arg8)) :=
  (W7_of_ne m ρ c main_arg8 (by decide)).trans (e1_arg8 m ρ c)
theorem x1_arg9 : W7 m ρ c (Proc.devRef .tc main_arg9) = (m ((c : Thread nD τ).loc main_arg9)) :=
  (W7_of_ne m ρ c main_arg9 (by decide)).trans (e1_arg9 m ρ c)

/-! ## At region 2's entry -/

/-- The second layer's rectified aggregate is the reference's. -/
theorem e2_hidden : W10 m ρ c (Proc.devRef .tc main_v65) = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  HostC.hidden_eq (W7 m ρ c) _ _ _ _ _ _ (x1_dense m ρ c) (x1_src m ρ c) (x1_dst m ρ c) (x1_norm m ρ c) (x1_arg5 m ρ c)
/-- The head's projection bias row is the bias vector cast to one row, -/
theorem e2_proj_bias : W10 m ρ c (Proc.devRef .tc main_v66) = shapeCast S1x64 (m ((c : Thread nD τ).loc main_arg7)) shapeCasts_S64_S1x64 :=
  (HostC.proj_bias_eq (W7 m ρ c)).trans (congrArg (fun x => shapeCast S1x64 x shapeCasts_S64_S1x64) (x1_arg7 m ρ c))
/-- and its classifier bias row likewise. -/
theorem e2_cls_bias : W10 m ρ c (Proc.devRef .tc main_v67) = shapeCast S1x6 (m ((c : Thread nD τ).loc main_arg9)) shapeCasts_S6_S1x6 :=
  (HostC.cls_bias_eq (W7 m ρ c)).trans (congrArg (fun x => shapeCast S1x6 x shapeCasts_S6_S1x6) (x1_arg9 m ρ c))
theorem e2_arg6 : W10 m ρ c (Proc.devRef .tc main_arg6) = (m ((c : Thread nD τ).loc main_arg6)) :=
  (HostC.C_keep_arg6 (W7 m ρ c)).trans (x1_arg6 m ρ c)
theorem e2_arg8 : W10 m ρ c (Proc.devRef .tc main_arg8) = (m ((c : Thread nD τ).loc main_arg8)) :=
  (HostC.C_keep_arg8 (W7 m ρ c)).trans (x1_arg8 m ρ c)

/-! ## At the return -/

/-- The embedding the head computes from what it finds is the reference's embedding stage. -/
theorem head_emb : Region2.embOf (V10 m ρ) c = Cert.ReferenceIdeal.ReadP.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.Bridge.emb_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (shapeCast S1x64 (m ((c : Thread nD τ).loc main_arg7)) shapeCasts_S64_S1x64)
    (fun q => shapeCast_a_1a_apply (m ((c : Thread nD τ).loc main_arg7)) shapeCasts_S64_S1x64 (0 : Fin 1) q)]
  exact congrArg Cert.Spec.relu (congrArg₂ Cert.Spec.addRow (congrArg₂ Cert.Spec.mm (e2_hidden m ρ c) (e2_arg6 m ρ c)) (e2_proj_bias m ρ c))

/-- After the run the embedding buffer holds the reference's embedding stage of the launch arguments, -/
theorem ret_emb : W11 m ρ c (Proc.devRef .tc main_v68_1) = Cert.ReferenceIdeal.ReadP.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W11_arr m ρ c 6).trans ((Region2.emb_array_eq (V10 m ρ) c).trans (head_emb m ρ c))

/-- and the logits buffer the reference's logits stage. -/
theorem ret_logits : W11 m ρ c (Proc.devRef .tc main_v68_0) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.Bridge.logits_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (shapeCast S1x6 (m ((c : Thread nD τ).loc main_arg9)) shapeCasts_S6_S1x6)
    (fun q => shapeCast_a_1a_apply (m ((c : Thread nD τ).loc main_arg9)) shapeCasts_S6_S1x6 (0 : Fin 1) q)]
  exact (W11_arr m ρ c 5).trans ((Region2.logits_array_eq (V10 m ρ) c).trans
    (congrArg₂ Cert.Spec.addRow (congrArg₂ Cert.Spec.mm (head_emb m ρ c) (e2_arg8 m ρ c)) (e2_cls_bias m ρ c)))

end Cert.KernelIdeal.Boundaries

end
-- ==== Proof.lean ====
/-
  Two graph-convolution layers and a two-matrix head, computed two ways, are one function of the inputs on the
  extended reals.  The kernel program runs its four dense products as three row-blocked pipelined regions (the last
  one fused with the bias, the rectifier and the classifier) and leaves the graph aggregation — gather at the edge
  sources, scale by the symmetric normalisation weight, scatter-add into the edge destinations, add the bias,
  rectify — to host operations; the reference runs everything as host operations.  The host operations the two
  programs share are the same operations in the same order, so the reference's stage functions name the kernel's host
  values as well; a block of rows of a matrix product is the product of the block of rows, and the twenty blocks
  tile the rows, so each region leaves the reference's dot_general (and, in the head, its bias, rectifier and second
  dot_general) of what it found.  A change of float format is the identity on the extended reals and no law beyond
  reading both sides at an index is used, so the precondition is never opened.
  The three frames: the two kernel programs' are the generated frame certificates; the reference's is its run with the
  results dropped.  The idealization rewrote nothing, so the kernel's idealization is the program's own text.
-/
import proofs.«141832_j62371515072942_1_alg».proof.Defs
import proofs.«141832_j62371515072942_1_alg».proof.Proof.Gen.Kernel
import proofs.«141832_j62371515072942_1_alg».proof.Proof.Gen.Kernel.Frame
import proofs.«141832_j62371515072942_1_alg».proof.Proof.Gen.KernelIdeal
import proofs.«141832_j62371515072942_1_alg».proof.Proof.Gen.KernelIdeal.Frame
import proofs.«141832_j62371515072942_1_alg».proof.Proof.Gen.ReferenceIdeal
import proofs.«141832_j62371515072942_1_alg».proof.Proof.Gen.Pre_finite_inputs
import proofs.«141832_j62371515072942_1_alg».proof.Proof.KernelRun
import proofs.«141832_j62371515072942_1_alg».proof.Proof.Boundaries
import proofs.«141832_j62371515072942_1_alg».proof.Proof.RefReadP
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the reference's logits stage and embedding stage of the (agreeing) arguments. -/
theorem algebraic : Cert.algebraic_KernelIdeal_ReferenceIdeal := by
  intro m ρ m' ρ' _ hagree
  refine ⟨fun c => Cert.ReferenceIdeal.ReadP.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Boundaries.ret_logits m ρ c),
        (h c).2.1.trans (Cert.KernelIdeal.Boundaries.ret_emb m ρ c), (h c).2.2⟩)
      (Cert.KernelIdeal.Results.run m ρ)
  · refine (θ_run Cert.ReferenceIdeal.defs _ _).mono (fun r h c => ⟨?_, ?_, (h c).2.2⟩)
      (Cert.ReferenceIdeal.ValueP.run (F := Ideal) m' ρ')
    · rw [(h c).1, Cert.ReferenceIdeal.ReadP.val_main_v74_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    · rw [(h c).2.1, Cert.ReferenceIdeal.ReadP.val_main_v70_eq, (hagree c).1, (hagree c).2.1, (hagree c).2.2.1, (hagree c).2.2.2.1, (hagree c).2.2.2.2.1, (hagree c).2.2.2.2.2.1, (hagree c).2.2.2.2.2.2.1, (hagree c).2.2.2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
